-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x524288x7x7 : Shape := ⟨4, ![1, 524288, 7, 7]⟩
abbrev S49x524288 : Shape := ⟨2, ![49, 524288]⟩
abbrev S_ : Shape := ⟨0, ![]⟩

class Facts : Prop where
  bcast_S_S1x524288x7x7 : S_.BroadcastsInDim S1x524288x7x7 (![] : Fin 0 → Fin S1x524288x7x7.rank)
  reducesTo_S1x524288x7x7_S_d0_1_2_3 : S1x524288x7x7.ReducesTo [0, 1, 2, 3] S_
  h_S_ : 0 < S_.numel
  bcast_S_S49x524288 : S_.BroadcastsInDim S49x524288 (![] : Fin 0 → Fin S49x524288.rank)
  reducesTo_S49x524288_S_d0_1 : S49x524288.ReducesTo [0, 1] S_

variable [Facts]

def fn {F : FTy → Type} [FloatOps F] (main_arg0 : FVec F S1x524288x7x7 .f32) (main_arg1 : FVec F S49x524288 .f32) (main_arg2 : FVec F S49x524288 .f32) : IVec S_ 1 :=
  let main_v0 : FVec F S1x524288x7x7 .f32 := Host.absf main_arg0
  let main_cst : FVec F S_ .f32 := constant S_ .f32 0x7F800000#32
  let main_v1 : FVec F S1x524288x7x7 .f32 := broadcastInDim S1x524288x7x7 ![] bcast_S_S1x524288x7x7 main_cst
  let main_v2 : IVec S1x524288x7x7 1 := cmpf .olt main_v0 main_v1
  let main_c : IVec S_ 1 := constantI S_ 1 1#1
  let main_v3 : IVec S_ 1 := (fun x v => Host.reduce IntOp.andi x v reducesTo_S1x524288x7x7_S_d0_1_2_3 h_S_) main_v2 main_c
  let main_v4 : FVec F S49x524288 .f32 := Host.absf main_arg1
  let main_cst_0 : FVec F S_ .f32 := constant S_ .f32 0x7F800000#32
  let main_v5 : FVec F S49x524288 .f32 := broadcastInDim S49x524288 ![] bcast_S_S49x524288 main_cst_0
  let main_v6 : IVec S49x524288 1 := cmpf .olt main_v4 main_v5
  let main_c_1 : IVec S_ 1 := constantI S_ 1 1#1
  let main_v7 : IVec S_ 1 := (fun x v => Host.reduce IntOp.andi x v reducesTo_S49x524288_S_d0_1 h_S_) main_v6 main_c_1
  let main_v8 : IVec S_ 1 := andi main_v3 main_v7
  let main_v9 : FVec F S49x524288 .f32 := Host.absf main_arg2
  let main_cst_2 : FVec F S_ .f32 := constant S_ .f32 0x7F800000#32
  let main_v10 : FVec F S49x524288 .f32 := broadcastInDim S49x524288 ![] bcast_S_S49x524288 main_cst_2
  let main_v11 : IVec S49x524288 1 := cmpf .olt main_v9 main_v10
  let main_c_3 : IVec S_ 1 := constantI S_ 1 1#1
  let main_v12 : IVec S_ 1 := (fun x v => Host.reduce IntOp.andi x v reducesTo_S49x524288_S_d0_1 h_S_) main_v11 main_c_3
  let main_v13 : IVec S_ 1 := andi main_v8 main_v12
  main_v13
-- ==== Kernel.lean ====
abbrev S1x524288x7x7 : Shape := ⟨4, ![1, 524288, 7, 7]⟩
abbrev S49x524288 : Shape := ⟨2, ![49, 524288]⟩
abbrev S524288x49 : Shape := ⟨2, ![524288, 49]⟩
abbrev S7x7x524288 : Shape := ⟨3, ![7, 7, 524288]⟩
abbrev S8192x49 : Shape := ⟨2, ![8192, 49]⟩
abbrev S7x7x8192 : Shape := ⟨3, ![7, 7, 8192]⟩
abbrev S49x8192 : Shape := ⟨2, ![49, 8192]⟩
abbrev S1x7x8192 : Shape := ⟨3, ![1, 7, 8192]⟩
abbrev S7x8192 : Shape := ⟨2, ![7, 8192]⟩
abbrev S7x1x8192 : Shape := ⟨3, ![7, 1, 8192]⟩

abbrev nBuf : Space → Nat
  | .hbm => 8
  | .vmem => 8
  | .smem => 0
  | _ => 0

abbrev bufTy : (tb : Table) → Fin (tcTables nBuf tb) → BufTy
  | .hbm, ⟨0, _⟩ => ⟨S1x524288x7x7, .f32⟩
  | .hbm, ⟨1, _⟩ => ⟨S49x524288, .f32⟩
  | .hbm, ⟨2, _⟩ => ⟨S49x524288, .f32⟩
  | .hbm, ⟨3, _⟩ => ⟨S524288x49, .f32⟩
  | .hbm, ⟨4, _⟩ => ⟨S7x7x524288, .f32⟩
  | .hbm, ⟨5, _⟩ => ⟨S7x7x524288, .f32⟩
  | .hbm, ⟨6, _⟩ => ⟨S7x7x524288, .f32⟩
  | .hbm, ⟨7, _⟩ => ⟨S49x524288, .f32⟩
  | .local _ .vmem, ⟨0, _⟩ => ⟨S8192x49, .f32⟩
  | .local _ .vmem, ⟨1, _⟩ => ⟨S8192x49, .f32⟩
  | .local _ .vmem, ⟨2, _⟩ => ⟨S7x7x8192, .f32⟩
  | .local _ .vmem, ⟨3, _⟩ => ⟨S7x7x8192, .f32⟩
  | .local _ .vmem, ⟨4, _⟩ => ⟨S7x7x8192, .f32⟩
  | .local _ .vmem, ⟨5, _⟩ => ⟨S7x7x8192, .f32⟩
  | .local _ .vmem, ⟨6, _⟩ => ⟨S7x7x8192, .f32⟩
  | .local _ .vmem, ⟨7, _⟩ => ⟨S7x7x8192, .f32⟩
  | _, _ => ⟨S1x524288x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8192x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x7x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7x7x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S7x7x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x524288x7x7_S524288x49 : S1x524288x7x7.ShapeCasts S524288x49
  shapeCasts_S49x524288_S7x7x524288 : S49x524288.ShapeCasts S7x7x524288
  inb_S8192x49_S8192x49_0_0 : ∀ a, (![0, 0] : Fin 2 → Nat) a + S8192x49.size a ≤ S8192x49.size a
  h_S8192x49 : 0 < S8192x49.numel
  shapeCasts_S8192x49_S8192x49 : S8192x49.ShapeCasts S8192x49
  transposes_S8192x49_p1_0_S49x8192 : S8192x49.Transposes [1, 0] S49x8192
  shapeCasts_S49x8192_S7x7x8192 : S49x8192.ShapeCasts S7x7x8192
  inb_S7x7x8192_S7x7x8192_0_0_0 : ∀ a, (![0, 0, 0] : Fin 3 → Nat) a + S7x7x8192.size a ≤ S7x7x8192.size a
  h_S7x7x8192 : 0 < S7x7x8192.numel
  shapeCasts_S7x7x8192_S7x7x8192 : S7x7x8192.ShapeCasts S7x7x8192
  slices_S7x7x8192_o0_0_0_S1x7x8192 : S7x7x8192.Slices ![0, 0, 0] S1x7x8192
  shapeCasts_S1x7x8192_S7x8192 : S1x7x8192.ShapeCasts S7x8192
  inb_S7x7x8192_S1x7x8192_0_0_0 : ∀ a, (![0, 0, 0] : Fin 3 → Nat) a + S1x7x8192.size a ≤ S7x7x8192.size a
  h_S1x7x8192 : 0 < S1x7x8192.numel
  shapeCasts_S7x8192_S7x1x8192 : S7x8192.ShapeCasts S7x1x8192
  shapeCasts_S7x8192_S1x7x8192 : S7x8192.ShapeCasts S1x7x8192
  broadcasts_S7x1x8192_S7x7x8192 : S7x1x8192.Broadcasts S7x7x8192
  broadcasts_S1x7x8192_S7x7x8192 : S1x7x8192.Broadcasts S7x7x8192
  slices_S7x7x8192_o1_0_0_S1x7x8192 : S7x7x8192.Slices ![1, 0, 0] S1x7x8192
  inb_S7x7x8192_S1x7x8192_1_0_0 : ∀ a, (![1, 0, 0] : Fin 3 → Nat) a + S1x7x8192.size a ≤ S7x7x8192.size a
  slices_S7x7x8192_o2_0_0_S1x7x8192 : S7x7x8192.Slices ![2, 0, 0] S1x7x8192
  inb_S7x7x8192_S1x7x8192_2_0_0 : ∀ a, (![2, 0, 0] : Fin 3 → Nat) a + S1x7x8192.size a ≤ S7x7x8192.size a
  slices_S7x7x8192_o3_0_0_S1x7x8192 : S7x7x8192.Slices ![3, 0, 0] S1x7x8192
  inb_S7x7x8192_S1x7x8192_3_0_0 : ∀ a, (![3, 0, 0] : Fin 3 → Nat) a + S1x7x8192.size a ≤ S7x7x8192.size a
  slices_S7x7x8192_o4_0_0_S1x7x8192 : S7x7x8192.Slices ![4, 0, 0] S1x7x8192
  inb_S7x7x8192_S1x7x8192_4_0_0 : ∀ a, (![4, 0, 0] : Fin 3 → Nat) a + S1x7x8192.size a ≤ S7x7x8192.size a
  slices_S7x7x8192_o5_0_0_S1x7x8192 : S7x7x8192.Slices ![5, 0, 0] S1x7x8192
  inb_S7x7x8192_S1x7x8192_5_0_0 : ∀ a, (![5, 0, 0] : Fin 3 → Nat) a + S1x7x8192.size a ≤ S7x7x8192.size a
  slices_S7x7x8192_o6_0_0_S1x7x8192 : S7x7x8192.Slices ![6, 0, 0] S1x7x8192
  inb_S7x7x8192_S1x7x8192_6_0_0 : ∀ a, (![6, 0, 0] : Fin 3 → Nat) a + S1x7x8192.size a ≤ S7x7x8192.size a
  shapeCasts_S7x7x524288_S49x524288 : S7x7x524288.ShapeCasts S49x524288
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x49.size a ≤ S524288x49.size a
  hwx0_0 : ∀ i : grid0.Coords, EltTy.bits .f32 = 32 ∨ (Rect.block (s := S524288x49) S8192x49.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S7x7x8192.size a ≤ S7x7x524288.size a
  hwx0_1 : ∀ i : grid0.Coords, EltTy.bits .f32 = 32 ∨ (Rect.block (s := S7x7x524288) S7x7x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S7x7x8192.size a ≤ S7x7x524288.size a
  hwx0_2 : ∀ i : grid0.Coords, EltTy.bits .f32 = 32 ∨ (Rect.block (s := S7x7x524288) S7x7x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S7x7x8192.size a ≤ S7x7x524288.size a
  hwx0_3 : ∀ i : grid0.Coords, EltTy.bits .f32 = 32 ∨ (Rect.block (s := S7x7x524288) S7x7x8192.size (cc0_transform_3 i) (hinb0_3 i)).WholeWords (EltTy.packing .f32)

variable [Facts₀]

abbrev win0_0 : Pipeline.Window sig grid0 :=
  Pipeline.Window.ofSpec (Memref.whole main_v0) S8192x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S7x7x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S7x7x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S7x7x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x524288x7x7 : Shape := ⟨4, ![1, 524288, 7, 7]⟩
abbrev S49x524288 : Shape := ⟨2, ![49, 524288]⟩
abbrev S1x7x7x524288 : Shape := ⟨4, ![1, 7, 7, 524288]⟩
abbrev S524288x49 : Shape := ⟨2, ![524288, 49]⟩
abbrev S524288x7x7 : Shape := ⟨3, ![524288, 7, 7]⟩

abbrev nBuf : Space → Nat
  | .hbm => 13
  | .vmem => 0
  | .smem => 0
  | _ => 0

abbrev bufTy : (tb : Table) → Fin (tcTables nBuf tb) → BufTy
  | .hbm, ⟨0, _⟩ => ⟨S1x524288x7x7, .f32⟩
  | .hbm, ⟨1, _⟩ => ⟨S49x524288, .f32⟩
  | .hbm, ⟨2, _⟩ => ⟨S49x524288, .f32⟩
  | .hbm, ⟨3, _⟩ => ⟨S1x7x7x524288, .f32⟩
  | .hbm, ⟨4, _⟩ => ⟨S49x524288, .f32⟩
  | .hbm, ⟨5, _⟩ => ⟨S524288x49, .f32⟩
  | .hbm, ⟨6, _⟩ => ⟨S524288x7x7, .f32⟩
  | .hbm, ⟨7, _⟩ => ⟨S524288x49, .f32⟩
  | .hbm, ⟨8, _⟩ => ⟨S524288x7x7, .f32⟩
  | .hbm, ⟨9, _⟩ => ⟨S524288x7x7, .f32⟩
  | .hbm, ⟨10, _⟩ => ⟨S524288x49, .f32⟩
  | .hbm, ⟨11, _⟩ => ⟨S49x524288, .f32⟩
  | .hbm, ⟨12, _⟩ => ⟨S49x524288, .f32⟩
  | _, _ => ⟨S1x524288x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  transposes_S1x524288x7x7_S1x7x7x524288_0_3_2_1 : S1x524288x7x7.Transposes [0, 3, 2, 1] S1x7x7x524288
  shapeCasts_S1x7x7x524288_S49x524288 : S1x7x7x524288.ShapeCasts S49x524288
  transposes_S49x524288_S524288x49_1_0 : S49x524288.Transposes [1, 0] S524288x49
  shapeCasts_S524288x49_S524288x7x7 : S524288x49.ShapeCasts S524288x7x7
  shapeCasts_S524288x7x7_S524288x49 : S524288x7x7.ShapeCasts S524288x49
  transposes_S524288x49_S49x524288_1_0 : S524288x49.Transposes [1, 0] S49x524288
  dot_S524288x7x7_S524288x7x7_S524288x7x7_2_1_1_2_0_0_wf : DotDims.WF S524288x7x7 S524288x7x7 S524288x7x7 [2] [1] [1] [2] [0] [0]

variable [Facts₀]

def dot_S524288x7x7_S524288x7x7_S524288x7x7_2_1_1_2_0_0 : DotDims S524288x7x7 S524288x7x7 S524288x7x7 where
  lhsContracting := [2]
  rhsContracting := [1]
  lhsNonContracting := [1]
  rhsNonContracting := [2]
  lhsBatch := [0]
  rhsBatch := [0]
  wf := dot_S524288x7x7_S524288x7x7_S524288x7x7_2_1_1_2_0_0_wf

class Facts : Prop extends Facts₀ where

variable [Facts]
-- ==== Proof.LibChannelLayout.lean ====
/-
  Layout chains of a block whose channel axis runs along the lanes, each read at an index written by coordinates.

  A block of `n` channels holds, per channel, a 7 × 7 matrix.  Three chains of layout operations occur:
  * the flat [n, 49] operand is transposed to [49, n] and split into [7, 7, n]: entry (j, a, c) is the operand's
    entry (c, 7·j + a);
  * row `j` of a [7, 7, n] array, cut out as [1, 7, n], viewed [7, n], then [7, 1, n] and broadcast along the middle
    axis to [7, 7, n]: entry (a, k, c) is the array's entry (j, a, c), whatever k;
  * a [1, 7, n] slab viewed [7, n], back to [1, 7, n] and broadcast along the leading axis to [7, 7, n]:
    entry (a, k, c) is the slab's entry (0, k, c), whatever a.
-/
import Idealize.ShloMosaic.Lib.ValueLayout

namespace Cert.ChannelMix

open Idealize.ShloMosaic Idealize.ShloMosaic.ValueIdx

variable {α : Type} {n : Nat}

/-- The position of entry (r, s) of a 7 × 7 matrix stored row by row in 49 places. -/
abbrev flat7 (r s : Fin 7) : Fin 49 := ⟨r.val * 7 + s.val, by have := r.isLt; have := s.isLt; omega⟩

/-- The flat [n, 49] operand, transposed and split: entry (j, a, c) is the operand's (c, 7·j + a). -/
theorem split_transpose_apply (v : (⟨2, ![n, 49]⟩ : Shape).Idx → α)
    (h0 : (⟨2, ![n, 49]⟩ : Shape).ShapeCasts ⟨2, ![n, 49]⟩)
    (ht : (⟨2, ![n, 49]⟩ : Shape).Transposes [1, 0] ⟨2, ![49, n]⟩)
    (hc : (⟨2, ![49, n]⟩ : Shape).ShapeCasts ⟨3, ![7, 7, n]⟩) (j a : Fin 7) (c : Fin n) :
    shapeCast ⟨3, ![7, 7, n]⟩ (transpose ⟨2, ![49, n]⟩ [1, 0] (shapeCast ⟨2, ![n, 49]⟩ v h0) ht) hc (ix3 j a c)
      = v (ix2 c (flat7 j a)) := by
  refine (shapeCast_apply _ hc (ix3 j a c) (ix2 (flat7 j a) c) ?_).trans ?_
  · rw [Shape.rowMajor_val_two, Shape.rowMajor_val_three]
    rfl
  · rw [transpose_ix2_apply, shapeCast_self]

/-- Row `j` of a [7, 7, n] array spread along the middle axis: entry (a, k, c) is the array's (j, a, c). -/
theorem row_spread_apply (v : (⟨3, ![7, 7, n]⟩ : Shape).Idx → α) (o : Nat)
    (hs : (⟨3, ![7, 7, n]⟩ : Shape).Slices ![o, 0, 0] ⟨3, ![1, 7, n]⟩)
    (h1 : (⟨3, ![1, 7, n]⟩ : Shape).ShapeCasts ⟨2, ![7, n]⟩)
    (h2 : (⟨2, ![7, n]⟩ : Shape).ShapeCasts ⟨3, ![7, 1, n]⟩)
    (h3 : (⟨3, ![7, 1, n]⟩ : Shape).Broadcasts ⟨3, ![7, 7, n]⟩) (j : Fin 7) (hj : j.val = o) (a k : Fin 7) (c : Fin n) :
    broadcastTo ⟨3, ![7, 7, n]⟩ (shapeCast ⟨3, ![7, 1, n]⟩ (shapeCast ⟨2, ![7, n]⟩
        (extractStridedSlice ⟨3, ![1, 7, n]⟩ ![o, 0, 0] v hs) h1) h2) h3 (ix3 a k c)
      = v (ix3 j a c) := by
  refine (broadcastTo_apply _ h3 (ix3 a k c) (ix3 a (0 : Fin 1) c) fun ax => ?_).trans ?_
  · match ax with
    | ⟨0, _⟩ => rfl
    | ⟨1, _⟩ => rfl
    | ⟨2, _⟩ =>
      show c.val = if n = 1 then 0 else c.val
      split
      · have := c.isLt; omega
      · rfl
  refine (shapeCast_apply _ h2 (ix3 a (0 : Fin 1) c) (ix2 a c) ?_).trans ?_
  · rw [Shape.rowMajor_val_two, Shape.rowMajor_val_three]
    show a.val * n + c.val = (a.val * 1 + 0) * n + c.val
    rw [Nat.mul_one, Nat.add_zero]
  rw [shapeCast_1ab_ab_apply]
  refine extractStridedSlice_apply _ v hs _ _ fun ax => ?_
  match ax with
  | ⟨0, _⟩ => exact hj
  | ⟨1, _⟩ => exact (Nat.zero_add _).symm
  | ⟨2, _⟩ => exact (Nat.zero_add _).symm

/-- A [1, 7, n] slab spread along the leading axis: entry (a, k, c) is the slab's (0, k, c). -/
theorem slab_spread_apply (v : (⟨3, ![1, 7, n]⟩ : Shape).Idx → α)
    (h1 : (⟨3, ![1, 7, n]⟩ : Shape).ShapeCasts ⟨2, ![7, n]⟩)
    (h2 : (⟨2, ![7, n]⟩ : Shape).ShapeCasts ⟨3, ![1, 7, n]⟩)
    (h3 : (⟨3, ![1, 7, n]⟩ : Shape).Broadcasts ⟨3, ![7, 7, n]⟩) (a k : Fin 7) (c : Fin n) :
    broadcastTo ⟨3, ![7, 7, n]⟩ (shapeCast ⟨3, ![1, 7, n]⟩ (shapeCast ⟨2, ![7, n]⟩ v h1) h2) h3 (ix3 a k c)
      = v (ix3 (0 : Fin 1) k c) := by
  rw [shapeCast_shapeCast]
  refine broadcastTo_apply v h3 (ix3 a k c) (ix3 (0 : Fin 1) k c) fun ax => ?_
  match ax with
  | ⟨0, _⟩ => rfl
  | ⟨1, _⟩ => rfl
  | ⟨2, _⟩ =>
    show c.val = if n = 1 then 0 else c.val
    split
    · have := c.isLt; omega
    · rfl

end Cert.ChannelMix
-- ==== Proof.ChannelMix.lean ====
/-
  The function both programs compute, index by index, on the extended reals.

  The input `x` holds, for each of 524288 channels `c`, a 7 × 7 matrix `x[0, c, ·, ·]`; `w` and `b` hold, per channel,
  a 7 × 7 matrix stored row by row down a column of a [49, 524288] array: `w[7·j + k, c]`, `b[7·a + k, c]`.  The result
  has the layout of `b`:

      out[7·a + k, c] = b[7·a + k, c] + Σ_j x[0, c, j, a] · w[7·j + k, c],

  the transposed channel matrix times the weight matrix, plus the bias.  One program starts from the bias entry and adds
  the seven products one after another; the other sums the seven products and adds the bias entry last.  Addition on the
  extended reals is commutative and associative (also at the infinities), so the two orders agree for every input.
-/
import Idealize.ShloMosaic.PureOps.Ideal
import proofs.«122501_j20890720928459_2_alg».proof.Proof.LibChannelLayout

noncomputable section

namespace Cert.ChannelMix

open Idealize.ShloMosaic Idealize.ShloMosaic.ValueIdx

/-- A start value and seven terms, added one after another from the left. -/
def acc7 (s : EReal) (f : Fin 7 → EReal) : EReal := s + f 0 + f 1 + f 2 + f 3 + f 4 + f 5 + f 6

/-- Adding seven terms to a start value one by one is adding the start value to their sum: only the order and the
    grouping of the eight summands differ. -/
theorem acc7_eq_sum_add (s : EReal) (f : Fin 7 → EReal) : acc7 s f = (∑ j : Fin 7, f j) + s := by
  unfold acc7
  rw [Fin.sum_univ_seven]
  ac_rfl

variable {n : Nat}

/-- One entry over a block of `n` channels laid out with the channel last: `X[c, 7·j + a]` is channel `c`'s matrix
    entry (j, a), `W[j, k, c]` and `B[a, k, c]` the weight and bias entries. -/
def mixAt (X : (⟨2, ![n, 49]⟩ : Shape).Idx → EReal) (W B : (⟨3, ![7, 7, n]⟩ : Shape).Idx → EReal)
    (a k : Fin 7) (c : Fin n) : EReal :=
  acc7 (B (ix3 a k c)) fun j => X (ix2 c (flat7 j a)) * W (ix3 j k c)

/-- The [7, 7, n] array of those entries. -/
def mix (X : (⟨2, ![n, 49]⟩ : Shape).Idx → EReal) (W B : (⟨3, ![7, 7, n]⟩ : Shape).Idx → EReal) :
    (⟨3, ![7, 7, n]⟩ : Shape).Idx → EReal :=
  fun y => mixAt X W B (y 0) (y 1) (y 2)

theorem mix_ix3 (X : (⟨2, ![n, 49]⟩ : Shape).Idx → EReal) (W B : (⟨3, ![7, 7, n]⟩ : Shape).Idx → EReal)
    (a k : Fin 7) (c : Fin n) : mix X W B (ix3 a k c) = mixAt X W B a k c := rfl

/-- The entry depends only on the bias entry and the seven pairs of factors it names: a block that holds those values of
    larger arrays, at a channel `C` of theirs, gives the larger arrays' entry at `C`. -/
theorem mixAt_congr {n' : Nat} (x0 : (⟨2, ![n, 49]⟩ : Shape).Idx → EReal) (x1 x2 : (⟨3, ![7, 7, n]⟩ : Shape).Idx → EReal)
    (X : (⟨2, ![n', 49]⟩ : Shape).Idx → EReal) (W B : (⟨3, ![7, 7, n']⟩ : Shape).Idx → EReal)
    (a k : Fin 7) (c : Fin n) (C : Fin n')
    (h0 : ∀ j : Fin 7, x0 (ix2 c (flat7 j a)) = X (ix2 C (flat7 j a)))
    (h1 : ∀ j : Fin 7, x1 (ix3 j k c) = W (ix3 j k C)) (h2 : x2 (ix3 a k c) = B (ix3 a k C)) :
    mixAt x0 x1 x2 a k c = mixAt X W B a k C := by
  unfold mixAt
  rw [h2]
  exact congrArg _ (funext fun j => by rw [h0 j, h1 j])

/-- One entry of the result from the arrays as given: row `7·a + k`, channel `c`. -/
def outAt (x : (⟨4, ![1, 524288, 7, 7]⟩ : Shape).Idx → EReal) (w b : (⟨2, ![49, 524288]⟩ : Shape).Idx → EReal)
    (a k : Fin 7) (c : Fin 524288) : EReal :=
  acc7 (b (ix2 (flat7 a k) c)) fun j => x (ix4 (0 : Fin 1) c j a) * w (ix2 (flat7 j k) c)

/-- The result array: row `p` is entry (p / 7, p % 7) of each channel's matrix. -/
def out (x : (⟨4, ![1, 524288, 7, 7]⟩ : Shape).Idx → EReal) (w b : (⟨2, ![49, 524288]⟩ : Shape).Idx → EReal) :
    (⟨2, ![49, 524288]⟩ : Shape).Idx → EReal :=
  fun i => outAt x w b ⟨(i 0).val / 7, by have := idx2_lt0 i; omega⟩ ⟨(i 0).val % 7, Nat.mod_lt _ (by decide)⟩
    ⟨(i 1).val, idx2_lt1 i⟩

end Cert.ChannelMix

end
-- ==== Proof.KernelBlock.lean ====
/-
  What the kernel body leaves in its output block, entry by entry.

  At a grid point the body holds a block of 8192 channels: the flat operand block [8192, 49], the weight block and the
  bias block, both [7, 7, 8192].  It turns the flat block into [7, 7, 8192] (entry (j, a, c) the flat block's
  (c, 7·j + a)), starts from the bias block and, for j = 0, …, 6 in turn, adds row j of that array spread along the
  middle axis times slab j of the weight block spread along the leading axis.  At (a, k, c) the stored value is therefore
  the bias entry plus, one after another, the seven products (flat entry (c, 7·j + a)) · (weight entry (j, k, c)).
-/
import proofs.«122501_j20890720928459_2_alg».proof.Proof.Gen.KernelIdeal.Frame
import proofs.«122501_j20890720928459_2_alg».proof.Proof.ChannelMix
import Idealize.ShloMosaic.Lib.Pipeline.Value

noncomputable section

namespace Cert.KernelIdeal.Block

open Cert.KernelIdeal Cert.KernelIdeal.Gen Cert.ChannelMix
open Idealize.ShloMosaic Idealize.ShloMosaic.ValueIdx

theorem zero2 : (![0, 0] : Fin 2 → Nat) = fun _ => 0 := funext fun a => by fin_cases a <;> rfl
theorem zero3 : (![0, 0, 0] : Fin 3 → Nat) = fun _ => 0 := funext fun a => by fin_cases a <;> rfl

/-- Slab `j` of a [7, 7, 8192] block, loaded as [1, 7, 8192]: entry (0, k, c) is the block's (j, k, c). -/
theorem ld_slab (x : Vec Ideal S7x7x8192 .f32) (o : Nat)
    (inb : ∀ a, (![o, 0, 0] : Fin 3 → Nat) a + S1x7x8192.size a ≤ S7x7x8192.size a)
    (j : Fin 7) (hj : j.val = o) (u : Fin 1) (k : Fin 7) (c : Fin 8192) :
    View.ld x (Rect.unit (s := S7x7x8192) ![o, 0, 0] S1x7x8192.size inb) (ix3 u k c) = x (ix3 j k c) := by
  show x _ = x _
  refine congrArg x (funext fun ax => Fin.ext ?_)
  match ax with
  | ⟨0, _⟩ => show o + 1 * u.val = j.val; omega
  | ⟨1, _⟩ => show 0 + 1 * k.val = k.val; omega
  | ⟨2, _⟩ => show 0 + 1 * c.val = c.val; omega

/-- One step of the accumulation at (a, k, c): the running value plus (row j of `v` at (a, c)) · (slab `s` at (k, c)). -/
theorem step_apply (acc v : FVec Ideal S7x7x8192 .f32) (s : Vec Ideal S1x7x8192 .f32) (o : Nat)
    (hs : S7x7x8192.Slices ![o, 0, 0] S1x7x8192) (h1 : S1x7x8192.ShapeCasts S7x8192)
    (h2 : S7x8192.ShapeCasts S7x1x8192) (h3 : S7x1x8192.Broadcasts S7x7x8192)
    (g2 : S7x8192.ShapeCasts S1x7x8192) (g3 : S1x7x8192.Broadcasts S7x7x8192)
    (j : Fin 7) (hj : j.val = o) (a k : Fin 7) (c : Fin 8192) :
    addf acc (mulf
        (broadcastTo S7x7x8192 (shapeCast S7x1x8192 (shapeCast S7x8192 (extractStridedSlice S1x7x8192 ![o, 0, 0] v hs) h1) h2) h3)
        (broadcastTo S7x7x8192 (shapeCast S1x7x8192 (shapeCast S7x8192 s h1) g2) g3)) (ix3 a k c)
      = acc (ix3 a k c) + v (ix3 j a c) * s (ix3 (0 : Fin 1) k c) := by
  rw [addf_apply, mulf_apply, row_spread_apply v o hs h1 h2 h3 j hj a k c, slab_spread_apply s h1 g2 g3 a k c]

/-- The flat operand block turned [7, 7, 8192]: entry (j, a, c) is the flat block's (c, 7·j + a). -/
theorem pay2_apply (x0 : Vec Ideal S8192x49 .f32) (j a : Fin 7) (c : Fin 8192) :
    k0_pay2 (F := Ideal) x0 (ix3 j a c) = x0 (ix2 c (flat7 j a)) := by
  unfold k0_pay2
  exact split_transpose_apply x0 _ _ _ j a c

/-- The body's stored value at (a, k, c) of its block, from the three input blocks. -/
theorem out_apply (x0 : Vec Ideal S8192x49 .f32) (x1 x2 : Vec Ideal S7x7x8192 .f32) (a k : Fin 7) (c : Fin 8192) :
    out0_3 (F := Ideal) x0 x1 x2 (ix3 a k c) = mixAt x0 x1 x2 a k c := by
  unfold out0_3
  rw [View.canon_unit_zero zero3]
  simp only [View.ld_unit_zero (S := S8192x49) zero2, View.ld_unit_zero (S := S7x7x8192) zero3]
  unfold k0_pay1 k0_pay3 k0_pay4 k0_pay5
  dsimp only
  rw [step_apply _ _ _ 6 _ _ _ _ _ _ (6 : Fin 7) rfl a k c, step_apply _ _ _ 5 _ _ _ _ _ _ (5 : Fin 7) rfl a k c,
    step_apply _ _ _ 4 _ _ _ _ _ _ (4 : Fin 7) rfl a k c, step_apply _ _ _ 3 _ _ _ _ _ _ (3 : Fin 7) rfl a k c,
    step_apply _ _ _ 2 _ _ _ _ _ _ (2 : Fin 7) rfl a k c, step_apply _ _ _ 1 _ _ _ _ _ _ (1 : Fin 7) rfl a k c,
    step_apply _ _ _ 0 _ _ _ _ _ _ (0 : Fin 7) rfl a k c, shapeCast_self]
  rw [ld_slab x1 0 _ (0 : Fin 7) rfl, ld_slab x1 1 _ (1 : Fin 7) rfl, ld_slab x1 2 _ (2 : Fin 7) rfl,
    ld_slab x1 3 _ (3 : Fin 7) rfl, ld_slab x1 4 _ (4 : Fin 7) rfl, ld_slab x1 5 _ (5 : Fin 7) rfl,
    ld_slab x1 6 _ (6 : Fin 7) rfl]
  simp only [pay2_apply]
  rfl

end Cert.KernelIdeal.Block

end
-- ==== Proof.KernelRegion.lean ====
/-
  The array the region leaves.

  The grid has 64 points; at point `t` every window's block is channels 8192·t … 8192·t + 8191 of its array, whole on
  the other axes.  So what point `t` writes back is the block of ONE whole-array function — every entry of every
  channel's product plus bias, `mix` of the three arrays the region finds — and since the 64 blocks tile the channel
  axis, the output array ends holding that function.
-/
import proofs.«122501_j20890720928459_2_alg».proof.Proof.KernelBlock

noncomputable section

namespace Cert.KernelIdeal.Region

open Cert.KernelIdeal Cert.KernelIdeal.Gen Cert.KernelIdeal.Block Cert.ChannelMix
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The printed index maps, decided over the 64 points: each window's block index is the point's number on the channel
    axis and 0 on the others. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = t.val
    ∧ win0_2.index t (0 : Fin 3) = 0 ∧ win0_2.index t (1 : Fin 3) = 0 ∧ win0_2.index t (2 : Fin 3) = t.val
    ∧ win0_3.index t (0 : Fin 3) = 0 ∧ win0_3.index t (1 : Fin 3) = 0 ∧ win0_3.index t (2 : Fin 3) = t.val :=
  (by decide +kernel : ∀ t : Fin grid0.N, _)

/-- Channel `c` of block `q`. -/
abbrev chan (q : Nat) (hq : q < 64) (c : Fin 8192) : Fin 524288 := ⟨q * 8192 + c.val, by have := c.isLt; omega⟩

theorem lt64 (t : Fin cfg0.N) : t.val < 64 := by have h : cfg0.N = 64 := N_0; have := t.isLt; omega

/-- The flat operand's block at point `t`, read at (c, p): the array's (8192·t + c, p). -/
theorem blk0 (c : Dev nD) (t : Fin cfg0.N) (cc : Fin 8192) (p : Fin 49) :
    iblk m c 0 t (ix2 cc p) = (V m c main_v0 : S524288x49.Idx → EReal) (ix2 (chan t.val (lt64 t) cc) p) := by
  obtain ⟨e00, e01, -⟩ := idx_facts t
  show V m c main_v0 (((cfg0.win 0).blk t).view.emb (ix2 cc p)) = V m c main_v0 _
  refine congrArg _ (funext fun ax => Fin.ext ?_)
  match ax with
  | ⟨0, _⟩ => show win0_0.index t (0 : Fin 2) * 8192 + 1 * cc.val = t.val * 8192 + cc.val; omega
  | ⟨1, _⟩ => show win0_0.index t (1 : Fin 2) * 49 + 1 * p.val = p.val; omega

/-- The weight block at point `t`, read at (j, k, c): the array's (j, k, 8192·t + c). -/
theorem blk1 (c : Dev nD) (t : Fin cfg0.N) (j k : Fin 7) (cc : Fin 8192) :
    iblk m c 1 t (ix3 j k cc) = (V m c main_v1 : S7x7x524288.Idx → EReal) (ix3 j k (chan t.val (lt64 t) cc)) := by
  obtain ⟨-, -, e10, e11, e12, -⟩ := idx_facts t
  show V m c main_v1 (((cfg0.win 1).blk t).view.emb (ix3 j k cc)) = V m c main_v1 _
  refine congrArg _ (funext fun ax => Fin.ext ?_)
  match ax with
  | ⟨0, _⟩ => show win0_1.index t (0 : Fin 3) * 7 + 1 * j.val = j.val; omega
  | ⟨1, _⟩ => show win0_1.index t (1 : Fin 3) * 7 + 1 * k.val = k.val; omega
  | ⟨2, _⟩ => show win0_1.index t (2 : Fin 3) * 8192 + 1 * cc.val = t.val * 8192 + cc.val; omega

/-- The bias block at point `t`, read at (a, k, c): the array's (a, k, 8192·t + c). -/
theorem blk2 (c : Dev nD) (t : Fin cfg0.N) (a k : Fin 7) (cc : Fin 8192) :
    iblk m c 2 t (ix3 a k cc) = (V m c main_v2 : S7x7x524288.Idx → EReal) (ix3 a k (chan t.val (lt64 t) cc)) := by
  obtain ⟨-, -, -, -, -, e20, e21, e22, -⟩ := idx_facts t
  show V m c main_v2 (((cfg0.win 2).blk t).view.emb (ix3 a k cc)) = V m c main_v2 _
  refine congrArg _ (funext fun ax => Fin.ext ?_)
  match ax with
  | ⟨0, _⟩ => show win0_2.index t (0 : Fin 3) * 7 + 1 * a.val = a.val; omega
  | ⟨1, _⟩ => show win0_2.index t (1 : Fin 3) * 7 + 1 * k.val = k.val; omega
  | ⟨2, _⟩ => show win0_2.index t (2 : Fin 3) * 8192 + 1 * cc.val = t.val * 8192 + cc.val; omega

/-- Where entry (a, k, c) of the output block at point `t` sits in the output array: (a, k, 8192·t + c). -/
theorem emb3 (t : Fin cfg0.N) (a k : Fin 7) (cc : Fin 8192) :
    ((cfg0.win 3).blk t).view.emb (ix3 a k cc) = (ix3 a k (chan t.val (lt64 t) cc) : S7x7x524288.Idx) := by
  obtain ⟨-, -, -, -, -, -, -, -, e30, e31, e32⟩ := idx_facts t
  refine funext fun ax => Fin.ext ?_
  match ax with
  | ⟨0, _⟩ => show win0_3.index t (0 : Fin 3) * 7 + 1 * a.val = a.val; omega
  | ⟨1, _⟩ => show win0_3.index t (1 : Fin 3) * 7 + 1 * k.val = k.val; omega
  | ⟨2, _⟩ => show win0_3.index t (2 : Fin 3) * 8192 + 1 * cc.val = t.val * 8192 + cc.val; omega

/-- What point `t` writes back is block `t` of `mix` of the three arrays the region finds. -/
theorem flushed_eq (c : Dev nD) (t : Fin cfg0.N) :
    (dats m 0 c).flushed 3 t = ((cfg0.win 3).blk t).view.read (Elt Ideal)
      (mix (V m c main_v0 : S524288x49.Idx → EReal) (V m c main_v1 : S7x7x524288.Idx → EReal)
        (V m c main_v2 : S7x7x524288.Idx → EReal)) := by
  show (cfg0.win 3).cut (grid0.coords t) ((dats m 0 c).after 3 t) = _
  rw [after0_3]
  funext y
  obtain ⟨a, k, cc, rfl⟩ : ∃ (a k : Fin 7) (cc : Fin 8192), y = ix3 a k cc := ⟨y 0, y 1, y 2, eq_ix3 y⟩
  show out0_3 (iblk m c 0 t) (iblk m c 1 t) (iblk m c 2 t) (ix3 a k cc)
    = mix (V m c main_v0 : S524288x49.Idx → EReal) (V m c main_v1 : S7x7x524288.Idx → EReal)
        (V m c main_v2 : S7x7x524288.Idx → EReal) (((cfg0.win 3).blk t).view.emb (ix3 a k cc))
  refine (out_apply _ _ _ a k cc).trans ?_
  refine (mixAt_congr _ _ _ _ _ _ a k cc (chan t.val (lt64 t) cc) (fun j => blk0 m c t cc (flat7 j a))
    (fun j => blk1 m c t j k cc) (blk2 m c t a k cc)).trans ?_
  rw [emb3 t a k cc]
  rfl

/-- An index of the output array is in point `t`'s block iff each coordinate is in the block's range on its axis. -/
theorem mem_blk (t : Fin cfg0.N) (i : S7x7x524288.Idx) :
    i ∈ ((cfg0.win 3).blk t).view.set ↔ ∀ a : Fin 3, win0_3.index t a * S7x7x8192.size a ≤ (i a).val
      ∧ (i a).val < win0_3.index t a * S7x7x8192.size a + S7x7x8192.size a := by
  show i ∈ ((View.whole main_v3).slice (win0_3.rect t)).set ↔ _
  rw [View.set_slice_whole, Rect.mem_set_unit]
  exact Iff.rfl

/-- Every index of the output array is in the block of the point its channel falls under: channel `C` is in block `C / 8192`. -/
theorem cover (i : S7x7x524288.Idx) :
    ∃ t : Fin cfg0.N, (cfg0.win 3).flush t = true ∧ i ∈ ((cfg0.win 3).blk t).view.set := by
  have h0 : (i 0).val < 7 := (i 0).isLt
  have h1 : (i 1).val < 7 := (i 1).isLt
  have h2 : (i 2).val < 524288 := (i 2).isLt
  have hN : cfg0.N = 64 := N_0
  let t : Fin cfg0.N := ⟨(i 2).val / 8192, by omega⟩
  have ht : t.val = (i 2).val / 8192 := rfl
  obtain ⟨-, -, -, -, -, -, -, -, e30, e31, e32⟩ := idx_facts t
  refine ⟨t, flush0_3 t, ?_⟩
  rw [mem_blk]
  intro a
  match a with
  | ⟨0, _⟩ => show win0_3.index t (0 : Fin 3) * 7 ≤ (i 0).val ∧ (i 0).val < win0_3.index t (0 : Fin 3) * 7 + 7; omega
  | ⟨1, _⟩ => show win0_3.index t (1 : Fin 3) * 7 ≤ (i 1).val ∧ (i 1).val < win0_3.index t (1 : Fin 3) * 7 + 7; omega
  | ⟨2, _⟩ => show win0_3.index t (2 : Fin 3) * 8192 ≤ (i 2).val ∧ (i 2).val < win0_3.index t (2 : Fin 3) * 8192 + 8192; omega

/-- The output array after the region: every entry of every channel, from the arrays the region finds. -/
theorem final3 (c : Dev nD) :
    (dats m 0 c).arrAt 3 cfg0.N = mix (V m c main_v0 : S524288x49.Idx → EReal) (V m c main_v1 : S7x7x524288.Idx → EReal)
      (V m c main_v2 : S7x7x524288.Idx → EReal) :=
  (dats m 0 c).arrAt_eq_of_cover 3 _ (fun t _ => flushed_eq m c t) cover

end Cert.KernelIdeal.Region

end
-- ==== Proof.ChannelMixReshape.lean ====
/-
  The reshapes around the kernel, read at an index.

  The kernel's program views `x` ([1, 524288, 7, 7]) as [524288, 49] and `w`, `b` ([49, 524288]) as [7, 7, 524288], and
  views its [7, 7, 524288] result as [49, 524288].  All four are row-major re-readings:
  * flat entry (c, 7·j + a) is `x[0, c, j, a]` (both at position 49·c + 7·j + a);
  * entry (j, k, c) of the split array is the given array's (7·j + k, c);
  * row `p` of the [49, 524288] view is entry (p / 7, p % 7) of the [7, 7, 524288] array.
  Hence the kernel's array of per-block entries, re-read, is the result function `out` of the arrays as given.
-/
import proofs.«122501_j20890720928459_2_alg».proof.Proof.ChannelMix

noncomputable section

namespace Cert.ChannelMix

open Idealize.ShloMosaic Idealize.ShloMosaic.ValueIdx

variable {α : Type}

/-- `x` viewed [524288, 49]: entry (c, 7·j + a) is `x[0, c, j, a]`. -/
theorem flat_apply (x : (⟨4, ![1, 524288, 7, 7]⟩ : Shape).Idx → α)
    (h : (⟨4, ![1, 524288, 7, 7]⟩ : Shape).ShapeCasts ⟨2, ![524288, 49]⟩) (c : Fin 524288) (j a : Fin 7) :
    shapeCast ⟨2, ![524288, 49]⟩ x h (ix2 c (flat7 j a)) = x (ix4 (0 : Fin 1) c j a) :=
  shapeCast_apply x h _ _ (by
    rw [Shape.rowMajor_val_four, Shape.rowMajor_val_two]
    show ((0 * 524288 + c.val) * 7 + j.val) * 7 + a.val = c.val * 49 + (j.val * 7 + a.val)
    omega)

/-- A [49, 524288] array viewed [7, 7, 524288]: entry (j, k, c) is the array's (7·j + k, c). -/
theorem split_apply (w : (⟨2, ![49, 524288]⟩ : Shape).Idx → α)
    (h : (⟨2, ![49, 524288]⟩ : Shape).ShapeCasts ⟨3, ![7, 7, 524288]⟩) (j k : Fin 7) (c : Fin 524288) :
    shapeCast ⟨3, ![7, 7, 524288]⟩ w h (ix3 j k c) = w (ix2 (flat7 j k) c) :=
  shapeCast_apply w h _ _ (by
    rw [Shape.rowMajor_val_two, Shape.rowMajor_val_three]
    rfl)

/-- A [7, 7, 524288] array viewed [49, 524288]: row `p` is the array's entry (p / 7, p % 7). -/
theorem join_apply (M : (⟨3, ![7, 7, 524288]⟩ : Shape).Idx → α)
    (h : (⟨3, ![7, 7, 524288]⟩ : Shape).ShapeCasts ⟨2, ![49, 524288]⟩) (i : (⟨2, ![49, 524288]⟩ : Shape).Idx) :
    shapeCast ⟨2, ![49, 524288]⟩ M h i
      = M (ix3 (⟨(i 0).val / 7, by have := idx2_lt0 i; omega⟩ : Fin 7) (⟨(i 0).val % 7, Nat.mod_lt _ (by decide)⟩ : Fin 7)
          (⟨(i 1).val, idx2_lt1 i⟩ : Fin 524288)) :=
  shapeCast_apply M h _ _ (by
    rw [Shape.rowMajor_val_three, Shape.rowMajor_val_two]
    have h0 := idx2_lt0 i
    show ((i 0).val / 7 * 7 + (i 0).val % 7) * 524288 + (i 1).val = (i 0).val * 524288 + (i 1).val
    omega)

/-- The per-entry function of the reshaped arrays is the per-entry function of the arrays as given. -/
theorem mixAt_reshaped (x : (⟨4, ![1, 524288, 7, 7]⟩ : Shape).Idx → EReal) (w b : (⟨2, ![49, 524288]⟩ : Shape).Idx → EReal)
    (h0 : (⟨4, ![1, 524288, 7, 7]⟩ : Shape).ShapeCasts ⟨2, ![524288, 49]⟩)
    (h1 : (⟨2, ![49, 524288]⟩ : Shape).ShapeCasts ⟨3, ![7, 7, 524288]⟩) (a k : Fin 7) (c : Fin 524288) :
    mixAt (shapeCast ⟨2, ![524288, 49]⟩ x h0) (shapeCast ⟨3, ![7, 7, 524288]⟩ w h1) (shapeCast ⟨3, ![7, 7, 524288]⟩ b h1) a k c
      = outAt x w b a k c := by
  unfold mixAt outAt
  simp only [flat_apply, split_apply]

/-- The kernel's program as one function: reshape the three arguments, form every entry, reshape the result. -/
theorem join_mix_reshaped (x : (⟨4, ![1, 524288, 7, 7]⟩ : Shape).Idx → EReal) (w b : (⟨2, ![49, 524288]⟩ : Shape).Idx → EReal)
    (h0 : (⟨4, ![1, 524288, 7, 7]⟩ : Shape).ShapeCasts ⟨2, ![524288, 49]⟩)
    (h1 : (⟨2, ![49, 524288]⟩ : Shape).ShapeCasts ⟨3, ![7, 7, 524288]⟩)
    (h2 : (⟨3, ![7, 7, 524288]⟩ : Shape).ShapeCasts ⟨2, ![49, 524288]⟩) :
    shapeCast ⟨2, ![49, 524288]⟩ (mix (shapeCast ⟨2, ![524288, 49]⟩ x h0) (shapeCast ⟨3, ![7, 7, 524288]⟩ w h1)
        (shapeCast ⟨3, ![7, 7, 524288]⟩ b h1)) h2 = out x w b := by
  funext i
  rw [join_apply, mix_ix3, mixAt_reshaped]
  rfl

end Cert.ChannelMix

end
-- ==== Proof.KernelRun.lean ====
/-
  The kernel's program, run: its result is the result function of its arguments.

  Before the region three reshapes view `x` as [524288, 49] and `w`, `b` as [7, 7, 524288]; the region leaves every
  entry of every channel in a [7, 7, 524288] array; one reshape after it views that array as [49, 524288].
-/
import proofs.«122501_j20890720928459_2_alg».proof.Proof.KernelRegion
import proofs.«122501_j20890720928459_2_alg».proof.Proof.ChannelMixReshape
import Idealize.ShloMosaic.Lib.StableHlo.Run

noncomputable section

namespace Cert.KernelIdeal.RunValue

open Cert.KernelIdeal Cert.KernelIdeal.Gen Cert.KernelIdeal.Region Cert.ChannelMix
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The flat operand the region finds is `x` viewed [524288, 49]. -/
theorem V_v0 (c : Dev nD) : (V m c main_v0 : S524288x49.Idx → EReal)
    = shapeCast S524288x49 (m ((c : Thread nD τ).loc main_arg0)) shapeCasts_S1x524288x7x7_S524288x49 := by
  show StableHlo.after hostOps0 (fun b => m (c, b)) (Proc.devRef .tc main_v0) = _
  after_results
  rfl

/-- The weight array the region finds is `w` viewed [7, 7, 524288]. -/
theorem V_v1 (c : Dev nD) : (V m c main_v1 : S7x7x524288.Idx → EReal)
    = shapeCast S7x7x524288 (m ((c : Thread nD τ).loc main_arg1)) shapeCasts_S49x524288_S7x7x524288 := by
  show StableHlo.after hostOps0 (fun b => m (c, b)) (Proc.devRef .tc main_v1) = _
  after_results
  rfl

/-- The bias array the region finds is `b` viewed [7, 7, 524288]. -/
theorem V_v2 (c : Dev nD) : (V m c main_v2 : S7x7x524288.Idx → EReal)
    = shapeCast S7x7x524288 (m ((c : Thread nD τ).loc main_arg2)) shapeCasts_S49x524288_S7x7x524288 := by
  show StableHlo.after hostOps0 (fun b => m (c, b)) (Proc.devRef .tc main_v2) = _
  after_results
  rfl

/-- The line after the region leaves, in the result buffer, the region's output array viewed [49, 524288]. -/
theorem tail_eq (c : Dev nD) :
    Pipeline.afterTail₀ cfgs (dats m) 0 (V0 m) [hostOps1] c main_v4
      = shapeCast S49x524288 ((dats m 0 c).arrAt 3 cfg0.N) shapeCasts_S7x7x524288_S49x524288 := by
  unfold Pipeline.afterTail₀
  show StableHlo.after hostOps1 _ (Proc.devRef .tc main_v4) = _
  after_results
  exact congrArg (fun A : S7x7x524288.Idx → EReal => shapeCast S49x524288 A shapeCasts_S7x7x524288_S49x524288)
    (Pipeline.withArrays_arr spec0 launch0.win.arr_inj c (V0 m c) (fun w => (dats m 0 c).arrAt w cfg0.N) 3)

/-- The result buffer after the run: the result function of the three arguments. -/
theorem result_eq (c : Dev nD) :
    Pipeline.afterTail₀ cfgs (dats m) 0 (V0 m) [hostOps1] c main_v4
      = out (m ((c : Thread nD τ).loc main_arg0)) (m ((c : Thread nD τ).loc main_arg1)) (m ((c : Thread nD τ).loc main_arg2)) := by
  rw [tail_eq, final3, V_v0, V_v1, V_v2]
  exact join_mix_reshaped _ _ _ _ _ _

/-- Every weakly fair execution of the kernel's program terminates with its result at the result function of the
    arguments, and the arguments unchanged. -/
theorem run : θ_run defs (onTc (τ := τ) (main (F := Ideal))) ⟨m, fun _ => 0, ρ⟩ fun r => ∀ c : Dev nD,
      r.2.mem ((c.tc : Thread nD τ).loc main_v4)
        = out (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.RunValue

end
-- ==== Proof.RefValue.lean ====
/-
  The reference computes the result function.

  The reference permutes `x` to [1, 7, 7, 524288], flattens, transposes and splits it into one 7 × 7 matrix per channel
  whose entry (a, j) is `x[0, c, j, a]`; does the same to `w`, whose matrix has entry (j, k) = `w[7·j + k, c]`; multiplies
  the two matrices of each channel; flattens and transposes the products back to [49, 524288]; and adds `b`.  Read at
  row `p`, channel `c`, this is the sum over j of `x[0, c, j, p / 7] · w[7·j + p % 7, c]`, plus `b[p, c]`: the same eight
  summands as the result function, the bias last instead of first.
-/
import proofs.«122501_j20890720928459_2_alg».proof.Proof.Gen.ReferenceIdeal.Read
import proofs.«122501_j20890720928459_2_alg».proof.Proof.ChannelMix

noncomputable section

namespace Cert.ReferenceIdeal.RefValue

open Cert.ReferenceIdeal Cert.ReferenceIdeal.Read Cert.ChannelMix
open Idealize.ShloMosaic Idealize.ShloMosaic.ValueIdx

/-- The reference's last stage, as a function of the three arguments, is the result function. -/
theorem ref_eq (x : (⟨S1x524288x7x7, .f32⟩ : BufTy).Contents (Elt Ideal))
    (w b : (⟨S49x524288, .f32⟩ : BufTy).Contents (Elt Ideal)) :
    val_main_v9 (F := Ideal) x w b = out x w b := by
  funext i
  have h0 : (i 0).val < 49 := idx2_lt0 i
  have h1 : (i 1).val < 524288 := idx2_lt1 i
  -- position 49·c + p of a [524288, 49] array is row c, and within the row p = 7·(p / 7) + p % 7
  have e1 : ((i 1).val * 49 + (i 0).val) / 49 = (i 1).val := by omega
  have e2 : ((i 1).val * 49 + (i 0).val) / 7 % 7 = (i 0).val / 7 := by omega
  have e3 : ((i 1).val * 49 + (i 0).val) % 7 = (i 0).val % 7 := by omega
  -- the left factor of the j-th product is `x[0, c, j, p / 7]`
  have hx : ∀ j : Fin 7, idx_main_v0 (idx_main_v1 (idx_main_v2 (idx_main_v3 (lidx_main_v6 (idx_main_v7 (idx_main_v8 i)) j))))
      = ix4 (0 : Fin 1) (⟨(i 1).val, h1⟩ : Fin 524288) j (⟨(i 0).val / 7, by omega⟩ : Fin 7) := fun j =>
    funext fun ax => Fin.ext (by
      have hj := j.isLt
      have q1 : (((i 1).val * 7 + (i 0).val / 7) * 7 + j.val) / 49 = (i 1).val := by omega
      have q2 : (((i 1).val * 7 + (i 0).val / 7) * 7 + j.val) % 49 = (i 0).val / 7 * 7 + j.val := by omega
      match ax with
      | ⟨0, _⟩ => rfl
      | ⟨1, _⟩ =>
        show (((((i 1).val * 49 + (i 0).val) / 49 * 7 + ((i 1).val * 49 + (i 0).val) / 7 % 7) * 7 + j.val) % 49 * 524288 + ((((i 1).val * 49 + (i 0).val) / 49 * 7 + ((i 1).val * 49 + (i 0).val) / 7 % 7) * 7 + j.val) / 49) % 524288 = (i 1).val
        rw [e1, e2, q1, q2]
        omega
      | ⟨2, _⟩ =>
        show (((((i 1).val * 49 + (i 0).val) / 49 * 7 + ((i 1).val * 49 + (i 0).val) / 7 % 7) * 7 + j.val) % 49 * 524288 + ((((i 1).val * 49 + (i 0).val) / 49 * 7 + ((i 1).val * 49 + (i 0).val) / 7 % 7) * 7 + j.val) / 49) / 524288 % 7 = j.val
        rw [e1, e2, q1, q2]
        omega
      | ⟨3, _⟩ =>
        show (((((i 1).val * 49 + (i 0).val) / 49 * 7 + ((i 1).val * 49 + (i 0).val) / 7 % 7) * 7 + j.val) % 49 * 524288 + ((((i 1).val * 49 + (i 0).val) / 49 * 7 + ((i 1).val * 49 + (i 0).val) / 7 % 7) * 7 + j.val) / 49) / 3670016 % 7 = (i 0).val / 7
        rw [e1, e2, q1, q2]
        omega)
  -- the right factor is `w[7·j + p % 7, c]`
  have hw : ∀ j : Fin 7, idx_main_v4 (idx_main_v5 (ridx_main_v6 (idx_main_v7 (idx_main_v8 i)) j))
      = ix2 (flat7 j (⟨(i 0).val % 7, Nat.mod_lt _ (by decide)⟩ : Fin 7)) (⟨(i 1).val, h1⟩ : Fin 524288) := fun j =>
    funext fun ax => Fin.ext (by
      have hj := j.isLt
      match ax with
      | ⟨0, _⟩ =>
        show ((((i 1).val * 49 + (i 0).val) / 49 * 7 + j.val) * 7 + ((i 1).val * 49 + (i 0).val) % 7) % 49
          = j.val * 7 + (i 0).val % 7
        omega
      | ⟨1, _⟩ =>
        show ((((i 1).val * 49 + (i 0).val) / 49 * 7 + j.val) * 7 + ((i 1).val * 49 + (i 0).val) % 7) / 49 = (i 1).val
        omega)
  -- the bias entry is `b[p, c]`
  have hb : i = ix2 (flat7 (⟨(i 0).val / 7, by omega⟩ : Fin 7) (⟨(i 0).val % 7, Nat.mod_lt _ (by decide)⟩ : Fin 7))
      (⟨(i 1).val, h1⟩ : Fin 524288) :=
    funext fun ax => Fin.ext (by
      match ax with
      | ⟨0, _⟩ => show (i 0).val = (i 0).val / 7 * 7 + (i 0).val % 7; omega
      | ⟨1, _⟩ => rfl)
  rw [val_main_v9_apply, val_main_v8_apply, val_main_v7_apply, val_main_v6_apply]
  simp only [val_main_v3_apply, val_main_v2_apply, val_main_v1_apply, val_main_v0_apply, val_main_v5_apply,
    val_main_v4_apply, hx, hw]
  unfold out outAt
  rw [acc7_eq_sum_add, ← hb]
  rfl

end Cert.ReferenceIdeal.RefValue

end
-- ==== Proof.lean ====
/-
  Per channel, a 7 × 7 product plus a bias: the kernel against its reference, on the extended reals.

  For each of 524288 channels `c`, with `x[0, c, ·, ·]` a 7 × 7 matrix and `w`, `b` holding a 7 × 7 matrix per channel down
  the columns of [49, 524288] arrays, both programs compute

      out[7·a + k, c] = b[7·a + k, c] + Σ_j x[0, c, j, a] · w[7·j + k, c].

  The kernel walks the channels in 64 blocks of 8192 with the channel on the last axis; in a block it starts from the
  bias entries and adds the seven products one after another.  The reference permutes and splits the arrays into one
  matrix per channel, multiplies the matrices, and adds the bias last.  The two results differ only in the order and the
  grouping of eight summands, and addition on the extended reals is commutative and associative also at the infinities;
  so they agree for every input, and the inputs' finiteness is never used.

  The frames of the two kernel programs and the reference's run are the generated ones.  The kernel's value is read off
  its generated frame run: what the body leaves in a block (Proof/KernelBlock.lean), the array the 64 blocks make up
  (Proof/KernelRegion.lean), the reshapes before and after the region (Proof/ChannelMixReshape.lean,
  Proof/KernelRun.lean); the reference's value is read off its generated stages (Proof/RefValue.lean).  The result
  function and the law that joins the two orders of summation are in Proof/ChannelMix.lean.
-/
import proofs.«122501_j20890720928459_2_alg».proof.Defs
import proofs.«122501_j20890720928459_2_alg».proof.Proof.Gen.Kernel
import proofs.«122501_j20890720928459_2_alg».proof.Proof.Gen.Kernel.Skeleton
import proofs.«122501_j20890720928459_2_alg».proof.Proof.Gen.Kernel.Launch
import proofs.«122501_j20890720928459_2_alg».proof.Proof.Gen.Kernel.Points
import proofs.«122501_j20890720928459_2_alg».proof.Proof.Gen.Kernel.Frame
import proofs.«122501_j20890720928459_2_alg».proof.Proof.Gen.KernelIdeal
import proofs.«122501_j20890720928459_2_alg».proof.Proof.Gen.KernelIdeal.Skeleton
import proofs.«122501_j20890720928459_2_alg».proof.Proof.Gen.KernelIdeal.Launch
import proofs.«122501_j20890720928459_2_alg».proof.Proof.Gen.KernelIdeal.Points
import proofs.«122501_j20890720928459_2_alg».proof.Proof.Gen.KernelIdeal.Frame
import proofs.«122501_j20890720928459_2_alg».proof.Proof.Gen.ReferenceIdeal
import proofs.«122501_j20890720928459_2_alg».proof.Proof.Gen.ReferenceIdeal.Run
import proofs.«122501_j20890720928459_2_alg».proof.Proof.Gen.ReferenceIdeal.Read
import proofs.«122501_j20890720928459_2_alg».proof.Proof.Gen.Pre_finite_inputs
import proofs.«122501_j20890720928459_2_alg».proof.Proof.KernelRun
import proofs.«122501_j20890720928459_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on `x`, `w` and `b`, both programs end with the result function of those three arrays in
    their result buffers. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
